-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg5 : FVec F S128x128 .f32) (main_arg6 : FVec F S128x128 .f32) (main_arg7 : FVec F S128 .f32) (main_arg8 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S1600000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 58
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000x1, .f32⟩
  | .hbm, ⟨15, _⟩ => ⟨S_, .f32⟩
  | .hbm, ⟨16, _⟩ => ⟨S50000x1, .f32⟩
  | .hbm, ⟨17, _⟩ => ⟨S1600000x1, .i32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S50000x128, .f32⟩
  | .hbm, ⟨37, _⟩ => ⟨S1600000x1, .i32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S50000x128, .f32⟩
  | .hbm, ⟨55, _⟩ => ⟨S1600000x1, .i32⟩
  | .hbm, ⟨56, _⟩ => ⟨S50000x128, .f32⟩
  | .hbm, ⟨57, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S50000x1 : S_.BroadcastsInDim S50000x1 (![] : Fin 0 → Fin S50000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S1600000x128 : S_.BroadcastsInDim S1600000x128 (![] : Fin 0 → Fin S1600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000x1_S1600000x1_S1600000x1_1_0_0_1_wf : ScatterDims.WF S50000x1 S1600000x1 S1600000x1 [1] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x128 : Shape := ⟨2, ![1600000, 128]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S50000x1, .f32⟩
  | .hbm, ⟨34, _⟩ => ⟨S1600000x1, .i32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S50000x128, .f32⟩
  | .hbm, ⟨65, _⟩ => ⟨S1600000x1, .i32⟩
  | .hbm, ⟨66, _⟩ => ⟨S50000x128, .f32⟩
  | .hbm, ⟨67, _⟩ => ⟨S_, .f32⟩
  | .hbm, ⟨68, _⟩ => ⟨S1600000x1, .f32⟩
  | .hbm, ⟨69, _⟩ => ⟨S_, .f32⟩
  | .hbm, ⟨70, _⟩ => ⟨S50000x1, .f32⟩
  | .hbm, ⟨71, _⟩ => ⟨S1600000x1, .i32⟩
  | .hbm, ⟨72, _⟩ => ⟨S50000x1, .f32⟩
  | .hbm, ⟨73, _⟩ => ⟨S_, .f32⟩
  | .hbm, ⟨74, _⟩ => ⟨S50000x1, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call2_cst : Ref sig .tc := ⟨.hbm, 60, rfl⟩
abbrev main_call2_v0 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named. @main is a chain of eight segments: three stretches of host
  operations, the first layer's tiled region, three more stretches, the second layer's tiled region. Every weakly fair
  execution terminates, and the final memory holds, at every buffer that outlives a region, the contents the fold of
  those segments leaves there (`W8`): the host stretches apply their operations, a region replaces its output array
  by what its ten write-backs leave. Read at the result buffer this gives the result array; read at an argument it
  gives the argument as launched.
-/
import proofs.«176178_j59279138619817_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    segments' fold leaves there and every argument as launched. -/
theorem run_result : θ_run defs (onTc (τ := τ) (main (F := F))) ⟨m, fun _ => 0, ρ⟩ (fun r => ∀ c : Dev nD,
      r.2.mem ((c.tc : Thread nD τ).loc main_v35) = W8 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v35 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Whole

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«176178_j59279138619817_2_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.LibMeanLayer.lean ====
/-
  One layer of the network on whole arrays, and its row tiles.

  For an M × D array A of aggregated messages, an M × 1 column cn of (clamped) neighbour counts, an M × D array z of
  node features, D × D weights Wl and Wr and a bias bl of D entries, the layer's output at row r, column q is

      ( Σ_k (A (r, k) / cn (r, 0)) · Wl (k, q)  +  bl (q) )  +  Σ_k z (r, k) · Wr (k, q),

  optionally followed by a maximum with 0. Row r of the output reads only row r of A, cn and z. So if the T × D arrays
  x0 and x2 are rows [r0, r0 + T) of A and z, and the T × 1 column x1 is rows [r0, r0 + T) of cn, then the same
  operations applied to x0, x1, x2 — a kernel's vector operations, with its changes of float format, which are the
  identity on the extended reals — give rows [r0, r0 + T) of the layer's output. Each step is one of the row-tile
  lemmas: a cast to the same shape, a column repeated across the D columns, an entrywise quotient, a product with a
  weight matrix, a bias row added to every row, an entrywise sum, and a maximum with a splat constant.
-/
import proofs.«176178_j59279138619817_2_alg».proof.Proof.LibTileMore

noncomputable section

namespace Cert.Sage

open Idealize.ShloMosaic Idealize.ShloMosaic.ValueIdx Cert.Tile

/-- A vector of D entries broadcasts along axis 1 to a 1 × D row, at every D. -/
theorem bidVec (D : Nat) : (⟨1, ![D]⟩ : Shape).BroadcastsInDim ⟨2, ![1, D]⟩ ![1] := by
  refine ⟨fun a b _ => Subsingleton.elim a b, fun a => ?_⟩
  match a with
  | ⟨0, _⟩ => exact Or.inr rfl

section Whole
variable {M D : Nat}

/-- The layer on whole arrays, before the activation: the sum (entry by entry) of the product of the quotients with
    the left weights, the bias row repeated down the rows, and the product of the features with the right weights. -/
def layer (A : (⟨2, ![M, D]⟩ : Shape).Idx → EReal) (cn : (⟨2, ![M, 1]⟩ : Shape).Idx → EReal)
    (z : (⟨2, ![M, D]⟩ : Shape).Idx → EReal) (Wl : (⟨2, ![D, D]⟩ : Shape).Idx → EReal)
    (bl : (⟨1, ![D]⟩ : Shape).Idx → EReal) (Wr : (⟨2, ![D, D]⟩ : Shape).Idx → EReal) :
    (⟨2, ![M, D]⟩ : Shape).Idx → EReal :=
  addf (F := Ideal) (φ := .f32)
    (addf (F := Ideal) (φ := .f32)
      (Ideal.matmul (DotDims.plain M D D)
        (fun j => Ideal.div (A j) (broadcastInDim ⟨2, ![M, D]⟩ ![0, 1] (bidCol M D) cn j)) Wl (fun _ => 0))
      (broadcastInDim ⟨2, ![M, D]⟩ ![0, 1] (bidRow M D) (broadcastInDim ⟨2, ![1, D]⟩ ![1] (bidVec D) bl)))
    (Ideal.matmul (DotDims.plain M D D) z Wr (fun _ => 0))

/-- The layer followed by a maximum with the constant of bit pattern 0, entry by entry. -/
def layerRelu (A : (⟨2, ![M, D]⟩ : Shape).Idx → EReal) (cn : (⟨2, ![M, 1]⟩ : Shape).Idx → EReal)
    (z : (⟨2, ![M, D]⟩ : Shape).Idx → EReal) (Wl : (⟨2, ![D, D]⟩ : Shape).Idx → EReal)
    (bl : (⟨1, ![D]⟩ : Shape).Idx → EReal) (Wr : (⟨2, ![D, D]⟩ : Shape).Idx → EReal) :
    (⟨2, ![M, D]⟩ : Shape).Idx → EReal :=
  maximumf (F := Ideal) (φ := .f32) (layer A cn z Wl bl Wr)
    (broadcastInDim ⟨2, ![M, D]⟩ ![] (bidScalar M D) (constant (F := Ideal) ⟨0, ![]⟩ .f32 0x00000000#32))

end Whole

section Tiles
variable {T M D : Nat} {r0 : Nat} {hr : r0 + T ≤ M}
variable {x0 x2 : (⟨2, ![T, D]⟩ : Shape).Idx → EReal} {x1 : (⟨2, ![T, 1]⟩ : Shape).Idx → EReal}
variable {A z : (⟨2, ![M, D]⟩ : Shape).Idx → EReal} {cn : (⟨2, ![M, 1]⟩ : Shape).Idx → EReal}

/-- The kernel's operations on a row tile give the row tile of the layer: the quotient by the repeated count
    column, the two products into a zero accumulator (their operands narrowed to a shorter float format first, which
    changes nothing here), the bias row, the two sums. -/
theorem tile_layer (hA : IsTile r0 hr x0 A) (hc : IsTile r0 hr x1 cn) (hz : IsTile r0 hr x2 z)
    (Wl Wr : (⟨2, ![D, D]⟩ : Shape).Idx → EReal) (bl : (⟨1, ![D]⟩ : Shape).Idx → EReal)
    (c0 : (⟨2, ![T, D]⟩ : Shape).ShapeCasts ⟨2, ![T, D]⟩) (c1 : (⟨2, ![T, 1]⟩ : Shape).ShapeCasts ⟨2, ![T, 1]⟩)
    (b1 : (⟨2, ![T, 1]⟩ : Shape).Broadcasts ⟨2, ![T, D]⟩) (hb : FTy.bf16.bits < FTy.f32.bits)
    (d : DotDims ⟨2, ![T, D]⟩ ⟨2, ![D, D]⟩ ⟨2, ![T, D]⟩) (hd : d = DotDims.plain T D D)
    (c2 : (⟨1, ![D]⟩ : Shape).ShapeCasts ⟨2, ![1, D]⟩) (b2 : (⟨2, ![1, D]⟩ : Shape).Broadcasts ⟨2, ![T, D]⟩) :
    IsTile r0 hr
      (addf (F := Ideal) (φ := .f32)
        (addf (F := Ideal) (φ := .f32)
          (matmul (F := Ideal) (φ₁ := .bf16) (φ₂ := .bf16) d none
            (truncf (F := Ideal) (φ := .f32) .bf16
              (divf (F := Ideal) (φ := .f32) (shapeCast ⟨2, ![T, D]⟩ x0 c0)
                (broadcastTo ⟨2, ![T, D]⟩ (shapeCast ⟨2, ![T, 1]⟩ x1 c1) b1)) hb)
            (truncf (F := Ideal) (φ := .f32) .bf16 Wl hb) (constant ⟨2, ![T, D]⟩ .f32 0x00000000#32))
          (broadcastTo ⟨2, ![T, D]⟩ (shapeCast ⟨2, ![1, D]⟩ bl c2) b2))
        (matmul (F := Ideal) (φ₁ := .bf16) (φ₂ := .bf16) d none
          (truncf (F := Ideal) (φ := .f32) .bf16 x2 hb) (truncf (F := Ideal) (φ := .f32) .bf16 Wr hb)
          (constant ⟨2, ![T, D]⟩ .f32 0x00000000#32)))
      (layer A cn z Wl bl Wr) :=
  vAdd
    (vAdd
      (vMatmul d hd none Wl
        (vTrunc .bf16 hb (vDiv (castSelf c0 hA) (colRep b1 (bidCol M D) (castSelf c1 hc)))))
      (bias bl c2 b2 (bidVec D) (bidRow M D)))
    (vMatmul d hd none Wr (vTrunc .bf16 hb hz))

/-- The same followed by the maximum with a splat of the constant of bit pattern 0. -/
theorem tile_layerRelu {y : (⟨2, ![T, D]⟩ : Shape).Idx → EReal}
    (Wl Wr : (⟨2, ![D, D]⟩ : Shape).Idx → EReal) (bl : (⟨1, ![D]⟩ : Shape).Idx → EReal)
    (hy : IsTile r0 hr y (layer A cn z Wl bl Wr)) :
    IsTile r0 hr
      (maximumf (F := Ideal) (φ := .f32) y (broadcast ⟨2, ![T, D]⟩ (Scalar.ofBits (F := Ideal) .f32 0x00000000#32)))
      (layerRelu A cn z Wl bl Wr) :=
  vMax hy (vSplat 0x00000000#32 (bidScalar M D))

end Tiles

end Cert.Sage

end
-- ==== Proof.KernelLayers.lean ====
/-
  What each tiled region of the idealized kernel leaves in its output array.

  A region runs its body at ten grid points; at point t the body reads rows [5000 t, 5000 t + 5000) of the aggregated
  messages, of the count column and of the node features, and the whole weight matrices and bias, and stores one
  5000 × 128 block, which is written back as rows [5000 t, 5000 t + 5000) of the output array. The body's stored value
  is the whole-array layer's row tile (the row-tile lemmas, applied to the body's operations), the ten blocks cover the
  50000 rows, so the output array ends as the whole-array layer of the arrays the region found at its entry.
-/
import proofs.«176178_j59279138619817_2_alg».proof.Proof.Gen.KernelIdeal.Frame
import proofs.«176178_j59279138619817_2_alg».proof.Proof.LibMeanLayer
import Idealize.ShloMosaic.Lib.Pipeline.Value
import Idealize.ShloMosaic.Lib.ValueIdx

set_option maxRecDepth 16384

noncomputable section

namespace Cert.KernelIdeal.Layers

open Cert.KernelIdeal Cert.KernelIdeal.Gen Idealize.ShloMosaic Idealize.ShloMosaic.TcCoe Idealize.SL.Sem
open Idealize.ShloMosaic.ValueIdx
open Idealize.ShloMosaic.Pipeline (Dat)
open Cert.Tile Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first layer's region -/

/-- The printed index maps over the ten points: the row-tiled windows sit at block row t, column block 0; the
    weights and the bias at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The body's stored value on row tiles is the row tile of the layer followed by its maximum with 0. -/
theorem pay0_tile {r0 : Nat} {hr : r0 + 5000 ≤ 50000}
    (x0 : Vec Ideal S5000x128 .f32) (x1 : Vec Ideal S5000x1 .f32) (x2 : Vec Ideal S5000x128 .f32)
    (x3 : Vec Ideal S128x128 .f32) (x4 : Vec Ideal S128 .f32) (x5 : Vec Ideal S128x128 .f32)
    (A z : S50000x128.Idx → EReal) (cn : S50000x1.Idx → EReal)
    (hA : IsTile r0 hr x0 A) (hc : IsTile r0 hr x1 cn) (hz : IsTile r0 hr x2 z) :
    IsTile r0 hr (k0_pay1 (F := Ideal) x0 x1 x2 x3 x5 x4) (layerRelu A cn z x3 x4 x5) := by
  unfold k0_pay1
  exact tile_layerRelu x3 x5 x4 (tile_layer hA hc hz x3 x5 x4 _ _ _ _ _ rfl _ _)

/-- Point t's block of the aggregated messages is rows [5000 t, 5000 t + 5000) of that array. -/
theorem rows0_0 (c : Dev nD) (t : Fin cfg0.N) (hr : t.val * 5000 + 5000 ≤ 50000) :
    IsTile (T := 5000) (M := 50000) (C := 128) (t.val * 5000) hr (iblk0 V c 0 t) (V c main_v21) := by
  intro p l
  obtain ⟨e0, e1, -⟩ := idx0 t
  unfold iblk0
  rw [View.read_apply]
  show V c main_v21 _ = V c main_v21 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * l.val = l.val; rw [e1]; omega

/-- Point t's block of the count column is rows [5000 t, 5000 t + 5000) of the column. -/
theorem rows0_1 (c : Dev nD) (t : Fin cfg0.N) (hr : t.val * 5000 + 5000 ≤ 50000) :
    IsTile (T := 5000) (M := 50000) (C := 1) (t.val * 5000) hr (iblk0 V c 1 t) (V c main_v9) := by
  intro p l
  obtain ⟨-, -, e0, e1, -⟩ := idx0 t
  unfold iblk0
  rw [View.read_apply]
  show V c main_v9 _ = V c main_v9 _
  congr 1
  funext a
  apply Fin.ext
  match a with
  | ⟨0, _⟩ => show win0_1.index t 0 * 5000 + 1 * p.val = t.val * 5000 + p.val; rw [e0]; omega
  | ⟨1, _⟩ => show win0_1.index t 1 * 1 + 1 * l.val = l.val; rw [e1]; omega

/-- Point t's block of the node features is rows [5000 t, 5000 t + 5000) of that array. -/
theorem rows0_2 (c : Dev nD) (t : Fin cfg0.N) (hr : t.val * 5000 + 5000 ≤ 50000) :
    IsTile (T := 5000) (M := 50000) (C := 128) (t.val * 5000) hr (iblk0 V c 2 t) (V c main_arg0) := by
  intro p l
  obtain ⟨-, -, -, -, e0, e1, -⟩ := idx0 t
  unfold iblk0
  rw [View.read_apply]
  show V c main_arg0 _ = V c main_arg0 _
  congr 1
  funext a
  apply Fin.ext
  match a with
  | ⟨0, _⟩ => show win0_2.index t 0 * 5000 + 1 * p.val = t.val * 5000 + p.val; rw [e0]; omega
  | ⟨1, _⟩ => show win0_2.index t 1 * 128 + 1 * l.val = l.val; rw [e1]; omega

/-- The left weights are read whole at every point. -/
theorem whole0_3 (c : Dev nD) (t : Fin cfg0.N) : (iblk0 V c 3 t : Vec Ideal S128x128 .f32) = V c main_arg3 := by
  obtain ⟨-, -, -, -, -, -, e0, e1, -⟩ := idx0 t
  funext y
  unfold iblk0
  rw [View.read_apply]
  show V c main_arg3 _ = V c main_arg3 y
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The bias is read whole at every point. -/
theorem whole0_4 (c : Dev nD) (t : Fin cfg0.N) : (iblk0 V c 4 t : Vec Ideal S128 .f32) = V c main_arg4 := by
  obtain ⟨-, -, -, -, -, -, -, -, e0, -⟩ := idx0 t
  funext y
  unfold iblk0
  rw [View.read_apply]
  show V c main_arg4 _ = V c main_arg4 y
  congr 1
  funext a
  apply Fin.ext
  match a with
  | ⟨0, _⟩ => show win0_4.index t 0 * 128 + 1 * (y 0).val = (y 0).val; rw [e0]; omega

/-- The right weights are read whole at every point. -/
theorem whole0_5 (c : Dev nD) (t : Fin cfg0.N) : (iblk0 V c 5 t : Vec Ideal S128x128 .f32) = V c main_arg5 := by
  obtain ⟨-, -, -, -, -, -, -, -, -, e0, e1, -⟩ := idx0 t
  funext y
  unfold iblk0
  rw [View.read_apply]
  show V c main_arg5 _ = V c main_arg5 y
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

/-- The layer's whole output, of the arrays the first region finds at its entry. -/
abbrev G0 (c : Dev nD) : S50000x128.Idx → EReal :=
  layerRelu (M := 50000) (D := 128) (V c main_v21) (V c main_v9) (V c main_arg0) (V c main_arg3) (V c main_arg4)
    (V c main_arg5)

/-- What point t writes back is block t of the layer's whole output. -/
theorem flushed0 (c : Dev nD) (t : Fin cfg0.N) :
    (dat0 V c).flushed 6 t = ((cfg0.win 6).blk t).view.read (Elt Ideal) (G0 V c) := by
  have hN : cfg0.N = 10 := N_0
  have hr : t.val * 5000 + 5000 ≤ 50000 := by have := t.isLt; omega
  obtain ⟨-, -, -, -, -, -, -, -, -, -, -, e0, e1⟩ := idx0 t
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  funext j
  obtain ⟨p, l, rfl⟩ : ∃ (p : Fin 5000) (l : Fin 128), j = ix2 p l := ⟨j 0, j 1, eq_ix2 j⟩
  show k0_pay1 (F := Ideal) (iblk0 V c 0 t) (iblk0 V c 1 t) (iblk0 V c 2 t) (iblk0 V c 3 t) (iblk0 V c 5 t)
      (iblk0 V c 4 t) (ix2 p l)
    = G0 V c (((cfg0.win 6).blk t).view.emb (ix2 p l))
  rw [whole0_3 V c t, whole0_4 V c t, whole0_5 V c t]
  refine (pay0_tile (hr := hr) (iblk0 V c 0 t) (iblk0 V c 1 t) (iblk0 V c 2 t) (V c main_arg3) (V c main_arg4)
    (V c main_arg5) (V c main_v21) (V c main_arg0) (V c main_v9) (rows0_0 V c t hr) (rows0_1 V c t hr)
    (rows0_2 V c t hr) p l).trans (congrArg (G0 V c) ?_)
  funext a
  apply Fin.ext
  match a with
  | ⟨0, _⟩ => show t.val * 5000 + p.val = win0_6.index t 0 * 5000 + 1 * p.val; rw [e0]; omega
  | ⟨1, _⟩ => show l.val = win0_6.index t 1 * 128 + 1 * l.val; rw [e1]; omega

/-- An index of the output array is in point t's block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v22).slice (win0_6.rect t)).set ↔ _
  rw [View.set_slice_whole, Rect.mem_set_unit]
  exact Iff.rfl

/-- Row r of the output array lies in the block of point r / 5000: the ten blocks cover the array. -/
theorem cover0 (i : S50000x128.Idx) :
    ∃ t : Fin cfg0.N, (cfg0.win 6).flush t = true ∧ i ∈ ((cfg0.win 6).blk t).view.set := by
  have hN : cfg0.N = 10 := N_0
  have hi0 : (i 0).val < 50000 := (i 0).isLt
  have hi1 : (i 1).val < 128 := (i 1).isLt
  have ht : (i 0).val / 5000 < cfg0.N := by omega
  obtain ⟨-, -, -, -, -, -, -, -, -, -, -, e0, e1⟩ := idx0 ⟨(i 0).val / 5000, ht⟩
  refine ⟨⟨(i 0).val / 5000, ht⟩, flush0_6 _, ?_⟩
  rw [mem_blk0]
  intro a
  match a with
  | ⟨0, _⟩ =>
    show win0_6.index ⟨(i 0).val / 5000, ht⟩ 0 * 5000 ≤ (i 0).val
      ∧ (i 0).val < win0_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ 1 * 128 ≤ (i 1).val
      ∧ (i 1).val < win0_6.index ⟨(i 0).val / 5000, ht⟩ 1 * 128 + 128
    rw [e1]
    omega

/-- After the first region its output array is the layer's whole output of the arrays found at entry. -/
theorem region0 (c : Dev nD) : (dat0 V c).arrAt 6 cfg0.N = G0 V c :=
  (dat0 V c).arrAt_eq_of_cover 6 (G0 V c) (fun t _ => flushed0 V c t) cover0

/-! ## The second layer's region -/

/-- The printed index maps over the ten points: the row-tiled windows sit at block row t, column block 0; the
    weights and the bias at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The body's stored value on row tiles is the row tile of the layer (no activation in this region; the features'
    block passes through a cast to its own shape first). -/
theorem pay1_tile {r0 : Nat} {hr : r0 + 5000 ≤ 50000}
    (x0 : Vec Ideal S5000x128 .f32) (x1 : Vec Ideal S5000x1 .f32) (x2 : Vec Ideal S5000x128 .f32)
    (x3 : Vec Ideal S128x128 .f32) (x4 : Vec Ideal S128 .f32) (x5 : Vec Ideal S128x128 .f32)
    (A z : S50000x128.Idx → EReal) (cn : S50000x1.Idx → EReal)
    (hA : IsTile r0 hr x0 A) (hc : IsTile r0 hr x1 cn) (hz : IsTile r0 hr x2 z) :
    IsTile r0 hr (k1_pay1 (F := Ideal) x0 x1 x2 x3 x5 x4) (layer A cn z x3 x4 x5) := by
  unfold k1_pay1
  exact tile_layer hA hc (castSelf _ hz) x3 x5 x4 _ _ _ _ _ rfl _ _

/-- Point t's block of the aggregated messages is rows [5000 t, 5000 t + 5000) of that array. -/
theorem rows1_0 (c : Dev nD) (t : Fin cfg1.N) (hr : t.val * 5000 + 5000 ≤ 50000) :
    IsTile (T := 5000) (M := 50000) (C := 128) (t.val * 5000) hr (iblk1 V c 0 t) (V c main_v34) := by
  intro p l
  obtain ⟨e0, e1, -⟩ := idx1 t
  unfold iblk1
  rw [View.read_apply]
  show V c main_v34 _ = V c main_v34 _
  congr 1
  funext a
  apply Fin.ext
  match a with
  | ⟨0, _⟩ => show win1_0.index t 0 * 5000 + 1 * p.val = t.val * 5000 + p.val; rw [e0]; omega
  | ⟨1, _⟩ => show win1_0.index t 1 * 128 + 1 * l.val = l.val; rw [e1]; omega

/-- Point t's block of the count column is rows [5000 t, 5000 t + 5000) of the column. -/
theorem rows1_1 (c : Dev nD) (t : Fin cfg1.N) (hr : t.val * 5000 + 5000 ≤ 50000) :
    IsTile (T := 5000) (M := 50000) (C := 1) (t.val * 5000) hr (iblk1 V c 1 t) (V c main_v9) := by
  intro p l
  obtain ⟨-, -, e0, e1, -⟩ := idx1 t
  unfold iblk1
  rw [View.read_apply]
  show V c main_v9 _ = V c main_v9 _
  congr 1
  funext a
  apply Fin.ext
  match a with
  | ⟨0, _⟩ => show win1_1.index t 0 * 5000 + 1 * p.val = t.val * 5000 + p.val; rw [e0]; omega
  | ⟨1, _⟩ => show win1_1.index t 1 * 1 + 1 * l.val = l.val; rw [e1]; omega

/-- Point t's block of the node features is rows [5000 t, 5000 t + 5000) of that array. -/
theorem rows1_2 (c : Dev nD) (t : Fin cfg1.N) (hr : t.val * 5000 + 5000 ≤ 50000) :
    IsTile (T := 5000) (M := 50000) (C := 128) (t.val * 5000) hr (iblk1 V c 2 t) (V c main_v22) := by
  intro p l
  obtain ⟨-, -, -, -, e0, e1, -⟩ := idx1 t
  unfold iblk1
  rw [View.read_apply]
  show V c main_v22 _ = V c main_v22 _
  congr 1
  funext a
  apply Fin.ext
  match a with
  | ⟨0, _⟩ => show win1_2.index t 0 * 5000 + 1 * p.val = t.val * 5000 + p.val; rw [e0]; omega
  | ⟨1, _⟩ => show win1_2.index t 1 * 128 + 1 * l.val = l.val; rw [e1]; omega

/-- The left weights are read whole at every point. -/
theorem whole1_3 (c : Dev nD) (t : Fin cfg1.N) : (iblk1 V c 3 t : Vec Ideal S128x128 .f32) = V c main_arg6 := by
  obtain ⟨-, -, -, -, -, -, e0, e1, -⟩ := idx1 t
  funext y
  unfold iblk1
  rw [View.read_apply]
  show V c main_arg6 _ = V c main_arg6 y
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The bias is read whole at every point. -/
theorem whole1_4 (c : Dev nD) (t : Fin cfg1.N) : (iblk1 V c 4 t : Vec Ideal S128 .f32) = V c main_arg7 := by
  obtain ⟨-, -, -, -, -, -, -, -, e0, -⟩ := idx1 t
  funext y
  unfold iblk1
  rw [View.read_apply]
  show V c main_arg7 _ = V c main_arg7 y
  congr 1
  funext a
  apply Fin.ext
  match a with
  | ⟨0, _⟩ => show win1_4.index t 0 * 128 + 1 * (y 0).val = (y 0).val; rw [e0]; omega

/-- The right weights are read whole at every point. -/
theorem whole1_5 (c : Dev nD) (t : Fin cfg1.N) : (iblk1 V c 5 t : Vec Ideal S128x128 .f32) = V c main_arg8 := by
  obtain ⟨-, -, -, -, -, -, -, -, -, e0, e1, -⟩ := idx1 t
  funext y
  unfold iblk1
  rw [View.read_apply]
  show V c main_arg8 _ = V c main_arg8 y
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

/-- The layer's whole output (no activation), of the arrays the second region finds at its entry. -/
abbrev G1 (c : Dev nD) : S50000x128.Idx → EReal :=
  layer (M := 50000) (D := 128) (V c main_v34) (V c main_v9) (V c main_v22) (V c main_arg6) (V c main_arg7)
    (V c main_arg8)

/-- What point t writes back is block t of the layer's whole output. -/
theorem flushed1 (c : Dev nD) (t : Fin cfg1.N) :
    (dat1 V c).flushed 6 t = ((cfg1.win 6).blk t).view.read (Elt Ideal) (G1 V c) := by
  have hN : cfg1.N = 10 := N_1
  have hr : t.val * 5000 + 5000 ≤ 50000 := by have := t.isLt; omega
  obtain ⟨-, -, -, -, -, -, -, -, -, -, -, e0, e1⟩ := idx1 t
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  funext j
  obtain ⟨p, l, rfl⟩ : ∃ (p : Fin 5000) (l : Fin 128), j = ix2 p l := ⟨j 0, j 1, eq_ix2 j⟩
  show k1_pay1 (F := Ideal) (iblk1 V c 0 t) (iblk1 V c 1 t) (iblk1 V c 2 t) (iblk1 V c 3 t) (iblk1 V c 5 t)
      (iblk1 V c 4 t) (ix2 p l)
    = G1 V c (((cfg1.win 6).blk t).view.emb (ix2 p l))
  rw [whole1_3 V c t, whole1_4 V c t, whole1_5 V c t]
  refine (pay1_tile (hr := hr) (iblk1 V c 0 t) (iblk1 V c 1 t) (iblk1 V c 2 t) (V c main_arg6) (V c main_arg7)
    (V c main_arg8) (V c main_v34) (V c main_v22) (V c main_v9) (rows1_0 V c t hr) (rows1_1 V c t hr)
    (rows1_2 V c t hr) p l).trans (congrArg (G1 V c) ?_)
  funext a
  apply Fin.ext
  match a with
  | ⟨0, _⟩ => show t.val * 5000 + p.val = win1_6.index t 0 * 5000 + 1 * p.val; rw [e0]; omega
  | ⟨1, _⟩ => show l.val = win1_6.index t 1 * 128 + 1 * l.val; rw [e1]; omega

/-- An index of the output array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v35).slice (win1_6.rect t)).set ↔ _
  rw [View.set_slice_whole, Rect.mem_set_unit]
  exact Iff.rfl

/-- Row r of the output array lies in the block of point r / 5000: the ten blocks cover the array. -/
theorem cover1 (i : S50000x128.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 128 := (i 1).isLt
  have ht : (i 0).val / 5000 < cfg1.N := by omega
  obtain ⟨-, -, -, -, -, -, -, -, -, -, -, e0, e1⟩ := idx1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ 0 * 5000 ≤ (i 0).val
      ∧ (i 0).val < win1_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ 1 * 128 ≤ (i 1).val
      ∧ (i 1).val < win1_6.index ⟨(i 0).val / 5000, ht⟩ 1 * 128 + 128
    rw [e1]
    omega

/-- After the second region its output array is the layer's whole output of the arrays found at entry. -/
theorem region1 (c : Dev nD) : (dat1 V c).arrAt 6 cfg1.N = G1 V c :=
  (dat1 V c).arrAt_eq_of_cover 6 (G1 V c) (fun t _ => flushed1 V c t) cover1

end Cert.KernelIdeal.Layers

end
-- ==== Proof.RefLayers.lean ====
/-
  The reference, stage by stage, is two applications of the whole-array layer.

  The reference computes, for each layer, the aggregated messages (a gather of the node features along the edges'
  sources, the edge attributes added, a maximum with 0, a scatter-add at the edges' destinations) and the clamped
  neighbour counts (a scatter-add of ones at the destinations, a maximum with 1); those stages are kept whole here —
  nothing below looks inside a gather or a scatter. What follows them is dense: the quotient by the count column
  repeated across the columns, the product with the left weights, the bias row, the product of the node features with
  the right weights, the two sums, and after the first layer a maximum with 0. On the extended reals the host's
  quotient, sums, maximum and products are the entrywise operations and the contraction `Ideal.matmul` onto zero, so
  each dense part is the whole-array layer by unfolding the stages. The second layer's count column is computed a
  second time by the same operations of the same edge list, and is the same column.
-/
import proofs.«176178_j59279138619817_2_alg».proof.Proof.Gen.ReferenceIdeal.Read
import proofs.«176178_j59279138619817_2_alg».proof.Proof.LibMeanLayer

set_option maxRecDepth 16384

noncomputable section

namespace Cert.ReferenceIdeal.Layers

open Cert.ReferenceIdeal Cert.ReferenceIdeal.Gen Cert.ReferenceIdeal.Read Idealize.ShloMosaic Cert.Sage Cert.Tile

/-- The host's product of an M × 128 array with a 128 × 128 matrix is the contraction onto zero. -/
theorem host_dot (l : FVec Ideal S50000x128 .f32) (r : FVec Ideal S128x128 .f32) :
    Host.dotGeneral (F := Ideal) (φ₁ := .f32) (φ₂ := .f32) dot_S50000x128_S128x128_S50000x128_1_0_0_1_n_n none l r
      = Ideal.matmul (DotDims.plain 50000 128 128) l r (fun _ => 0) := rfl

/-- The host's quotient is the entrywise quotient of extended reals. -/
theorem host_div (a b : FVec Ideal S50000x128 .f32) :
    Host.divf (F := Ideal) (φ := .f32) a b = fun j => Ideal.div (a j) (b j) := rfl

variable (x0 : (⟨S50000x128, .f32⟩ : BufTy).Contents (Elt Ideal)) (x1 : (⟨S2x1600000, .i32⟩ : BufTy).Contents (Elt Ideal))
  (x2 : (⟨S1600000x128, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal))

/-- The first layer's output (after its maximum with 0) is the whole-array layer of the first aggregation, the
    count column, the input features and the first layer's parameters. -/
theorem first_layer :
    val_main_v30 (F := Ideal) x0 x1 x2 x3 x4 x5
      = layerRelu (M := 50000) (D := 128) (val_main_v15 (F := Ideal) x0 x1 x2) (val_main_v21 (F := Ideal) x1) x0 x3 x4 x5 := by
  unfold val_main_v30 val_main_v29 val_main_v28 val_main_v27 val_main_v26 val_main_v25 val_main_v24 val_main_v23
    val_main_v22 val_main_call1_v0 val_main_call1_cst
  rw [host_dot, host_dot, host_div]
  rfl

/-- The count column computed for the second layer is the one computed for the first. -/
theorem count_again : val_main_v48 (F := Ideal) x1 = val_main_v21 (F := Ideal) x1 := by
  unfold val_main_v48 val_main_v47 val_main_v46 val_main_v45 val_main_v44 val_main_v43 val_main_cst_9 val_main_cst_8
    val_main_cst_7 val_main_v21 val_main_v20 val_main_v19 val_main_v18 val_main_v17 val_main_v16 val_main_cst_3
    val_main_cst_2 val_main_cst_1
  rfl

/-- The result is the whole-array layer (no activation) of the second aggregation, the count column, the first
    layer's output and the second layer's parameters. -/
theorem second_layer :
    val_main_v56 (F := Ideal) x0 x1 x2 x3 x4 x5 x6 x7 x8
      = layer (M := 50000) (D := 128) (val_main_v42 (F := Ideal) x0 x1 x2 x3 x4 x5) (val_main_v21 (F := Ideal) x1)
          (val_main_v30 (F := Ideal) x0 x1 x2 x3 x4 x5) x6 x7 x8 := by
  rw [← count_again x1]
  unfold val_main_v56 val_main_v55 val_main_v54 val_main_v53 val_main_v52 val_main_v51 val_main_v50 val_main_v49
  rw [host_dot, host_dot, host_div]
  rfl

end Cert.ReferenceIdeal.Layers

end
-- ==== Proof.Fold.lean ====
/-
  The idealized kernel's result, read back through @main's eight segments, is the reference's result.

  Before the first region the host operations compute, from the edge list, the count column (a scatter-add of ones at
  the destinations, a maximum with 1) and the first aggregation (a gather of the input features along the sources, the
  edge attributes added, a maximum with 0, a scatter-add at the destinations): the same operations, on the same
  arguments, as the reference's stages of those names, so they are those stages. The first region leaves the
  whole-array layer of them, which is the reference's first layer. The host operations between the regions compute the
  second aggregation from the first region's output exactly as the reference does from its first layer, and the second
  region leaves the whole-array layer of that, which is the reference's result.
-/
import proofs.«176178_j59279138619817_2_alg».proof.Proof.KernelLayers
import proofs.«176178_j59279138619817_2_alg».proof.Proof.RefLayers
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg) (c : Dev nD)

/-- Argument 0 of @main as launched. -/
abbrev A0 : Buf (Elt Ideal) ((c : Thread nD τ).loc main_arg0) := m ((c : Thread nD τ).loc main_arg0)
/-- Argument 1 of @main as launched. -/
abbrev A1 : Buf (Elt Ideal) ((c : Thread nD τ).loc main_arg1) := m ((c : Thread nD τ).loc main_arg1)
/-- Argument 2 of @main as launched. -/
abbrev A2 : Buf (Elt Ideal) ((c : Thread nD τ).loc main_arg2) := m ((c : Thread nD τ).loc main_arg2)
/-- Argument 3 of @main as launched. -/
abbrev A3 : Buf (Elt Ideal) ((c : Thread nD τ).loc main_arg3) := m ((c : Thread nD τ).loc main_arg3)
/-- Argument 4 of @main as launched. -/
abbrev A4 : Buf (Elt Ideal) ((c : Thread nD τ).loc main_arg4) := m ((c : Thread nD τ).loc main_arg4)
/-- Argument 5 of @main as launched. -/
abbrev A5 : Buf (Elt Ideal) ((c : Thread nD τ).loc main_arg5) := m ((c : Thread nD τ).loc main_arg5)
/-- Argument 6 of @main as launched. -/
abbrev A6 : Buf (Elt Ideal) ((c : Thread nD τ).loc main_arg6) := m ((c : Thread nD τ).loc main_arg6)
/-- Argument 7 of @main as launched. -/
abbrev A7 : Buf (Elt Ideal) ((c : Thread nD τ).loc main_arg7) := m ((c : Thread nD τ).loc main_arg7)
/-- Argument 8 of @main as launched. -/
abbrev A8 : Buf (Elt Ideal) ((c : Thread nD τ).loc main_arg8) := m ((c : Thread nD τ).loc main_arg8)

/-! ## At the first region's entry -/

/-- The edge sources, as a vector. -/
theorem src3 : W3 m ρ c (Proc.devRef .tc main_v1) = Cert.ReferenceIdeal.Read.val_main_v1 (F := Ideal) (A1 m c) := by
  dsimp only [W3, W2, W1, W0, hostOps0, hostOps0_1, hostOps0_2]
  after_results
  rfl

/-- The edge destinations, as a vector. -/
theorem dst3 : W3 m ρ c (Proc.devRef .tc main_v3) = Cert.ReferenceIdeal.Read.val_main_v3 (F := Ideal) (A1 m c) := by
  dsimp only [W3, W2, W1, W0, hostOps0, hostOps0_1, hostOps0_2]
  after_results
  rfl

/-- The clamped neighbour counts are the reference's. -/
theorem cnt3 : W3 m ρ c (Proc.devRef .tc main_v9) = Cert.ReferenceIdeal.Read.val_main_v21 (F := Ideal) (A1 m c) := by
  dsimp only [W3, W2, W1, W0, hostOps0, hostOps0_1, hostOps0_2]
  after_results
  rfl

/-- Before the activation's call: the features gathered along the edges' sources plus the edge attributes are the
    reference's stage of that name. -/
theorem msg1 : W1 m ρ c (Proc.devRef .tc main_v17) = Cert.ReferenceIdeal.Read.val_main_v11 (F := Ideal) (A0 m c) (A1 m c) (A2 m c) := by
  dsimp only [W1, W0, hostOps0]
  after_results_simp
  rfl

/-- The edge destinations, before the call, -/
theorem dst1 : W1 m ρ c (Proc.devRef .tc main_v3) = Cert.ReferenceIdeal.Read.val_main_v3 (F := Ideal) (A1 m c) := by
  dsimp only [W1, W0, hostOps0]
  after_results
  rfl

/-- The first activation's call, from any contents: the buffer it writes is the maximum with 0 of the buffer it is
    applied to. -/
theorem act0 (U : Valuation τ sig (Elt Ideal)) (x : FVec Ideal S1600000x128 .f32)
    (h : U (Proc.devRef .tc main_v17) = x) :
    StableHlo.after hostOps0_1 U (Proc.devRef .tc main_v18)
      = maximumf (F := Ideal) (φ := .f32) x (broadcastInDim S1600000x128 ![] bcast_S_S1600000x128 (constant (F := Ideal) S_ .f32 0x00000000#32)) := by
  dsimp only [hostOps0_1]
  after_results
  rw [h]
  rfl

/-- The call leaves the edge destinations alone. -/
theorem act0_dst (U : Valuation τ sig (Elt Ideal)) :
    StableHlo.after hostOps0_1 U (Proc.devRef .tc main_v3) = U (Proc.devRef .tc main_v3) := by
  dsimp only [hostOps0_1]
  after_results

/-- The first scatter-add's stretch, from any contents: the messages summed at the destinations into zeros. -/
theorem sum0 (U : Valuation τ sig (Elt Ideal)) (d : IVec S1600000 32) (x : FVec Ideal S1600000x128 .f32)
    (hd : U (Proc.devRef .tc main_v3) = d) (hx : U (Proc.devRef .tc main_v18) = x) :
    StableHlo.after hostOps0_2 U (Proc.devRef .tc main_v21)
      = Host.scatterAdd (F := Ideal) scatter_S50000x128_S1600000x1_S1600000x128_1_0_0_1
          (broadcastInDim S50000x128 ![] bcast_S_S50000x128 (constant (F := Ideal) S_ .f32 0x00000000#32))
          (broadcastInDim S1600000x1 ![0] bcast_S1600000_S1600000x1_0 d) x := by
  dsimp only [hostOps0_2]
  after_results
  rw [hd, hx]

/-- The activation of the first messages is the reference's. -/
theorem msg2 : W2 m ρ c (Proc.devRef .tc main_v18) = Cert.ReferenceIdeal.Read.val_main_v12 (F := Ideal) (A0 m c) (A1 m c) (A2 m c) :=
  (act0 (W1 m ρ c) _ (msg1 m ρ c)).trans rfl

/-- The edge destinations after the call. -/
theorem dst2 : W2 m ρ c (Proc.devRef .tc main_v3) = Cert.ReferenceIdeal.Read.val_main_v3 (F := Ideal) (A1 m c) :=
  (act0_dst (W1 m ρ c)).trans (dst1 m ρ c)

/-- The first aggregation — the messages summed at the edges' destinations — is the reference's. -/
theorem agg3 : W3 m ρ c (Proc.devRef .tc main_v21) = Cert.ReferenceIdeal.Read.val_main_v15 (F := Ideal) (A0 m c) (A1 m c) (A2 m c) :=
  (sum0 (W2 m ρ c) _ _ (dst2 m ρ c) (msg2 m ρ c)).trans rfl

/-- The input features reach the first region as launched: no host operation before it writes an argument. -/
theorem arg0_3 : W3 m ρ c (Proc.devRef .tc main_arg0) = A0 m c := by
  dsimp only [W3, W2, W1, W0, hostOps0, hostOps0_1, hostOps0_2]
  after_results

/-- So do the edge attributes, -/
theorem arg2_3 : W3 m ρ c (Proc.devRef .tc main_arg2) = A2 m c := by
  dsimp only [W3, W2, W1, W0, hostOps0, hostOps0_1, hostOps0_2]
  after_results

/-- the first layer's left weights, -/
theorem arg3_3 : W3 m ρ c (Proc.devRef .tc main_arg3) = A3 m c := by
  dsimp only [W3, W2, W1, W0, hostOps0, hostOps0_1, hostOps0_2]
  after_results

/-- its bias, -/
theorem arg4_3 : W3 m ρ c (Proc.devRef .tc main_arg4) = A4 m c := by
  dsimp only [W3, W2, W1, W0, hostOps0, hostOps0_1, hostOps0_2]
  after_results

/-- and its right weights. -/
theorem arg5_3 : W3 m ρ c (Proc.devRef .tc main_arg5) = A5 m c := by
  dsimp only [W3, W2, W1, W0, hostOps0, hostOps0_1, hostOps0_2]
  after_results

/-! ## After the first region -/

/-- The first region's output array is the reference's first layer (after its maximum with 0). -/
theorem z1_4 : W4 m ρ c (Proc.devRef .tc main_v22)
    = Cert.ReferenceIdeal.Read.val_main_v30 (F := Ideal) (A0 m c) (A1 m c) (A2 m c) (A3 m c) (A4 m c) (A5 m c) := by
  refine (W4_arr m ρ c 6).trans ?_
  refine (Cert.KernelIdeal.Layers.region0 (V3 m ρ) c).trans ?_
  show Cert.Sage.layerRelu (M := 50000) (D := 128) (W3 m ρ c (Proc.devRef .tc main_v21)) (W3 m ρ c (Proc.devRef .tc main_v9))
    (W3 m ρ c (Proc.devRef .tc main_arg0)) (W3 m ρ c (Proc.devRef .tc main_arg3)) (W3 m ρ c (Proc.devRef .tc main_arg4))
    (W3 m ρ c (Proc.devRef .tc main_arg5)) = _
  rw [agg3, cnt3, arg0_3, arg3_3, arg4_3, arg5_3]
  exact (Cert.ReferenceIdeal.Layers.first_layer (A0 m c) (A1 m c) (A2 m c) (A3 m c) (A4 m c) (A5 m c)).symm

/-- The region leaves every buffer that is not one of its arrays as it found it: the edge sources, -/
theorem src4 : W4 m ρ c (Proc.devRef .tc main_v1) = Cert.ReferenceIdeal.Read.val_main_v1 (F := Ideal) (A1 m c) :=
  (W4_of_ne m ρ c main_v1 (by decide)).trans (src3 m ρ c)

/-- the edge destinations, -/
theorem dst4 : W4 m ρ c (Proc.devRef .tc main_v3) = Cert.ReferenceIdeal.Read.val_main_v3 (F := Ideal) (A1 m c) :=
  (W4_of_ne m ρ c main_v3 (by decide)).trans (dst3 m ρ c)

/-- and the edge attributes. -/
theorem arg2_4 : W4 m ρ c (Proc.devRef .tc main_arg2) = A2 m c :=
  (W4_of_ne m ρ c main_arg2 (by decide)).trans (arg2_3 m ρ c)

/-- The count column is one of the region's input arrays, which it leaves as found. -/
theorem cnt4 : W4 m ρ c (Proc.devRef .tc main_v9) = Cert.ReferenceIdeal.Read.val_main_v21 (F := Ideal) (A1 m c) :=
  (W4_arr m ρ c 1).trans (((dat0 (V3 m ρ) c).arrAt_in 1 rfl _).trans ((A_eq0 (V3 m ρ) c 1).trans (cnt3 m ρ c)))

/-! ## At the second region's entry -/

/-- Before the second activation's call: the first region's output gathered along the sources plus the edge
    attributes are the reference's stage, gathered from its first layer. -/
theorem msg5 : W5 m ρ c (Proc.devRef .tc main_v30)
    = Cert.ReferenceIdeal.Read.val_main_v38 (F := Ideal) (A0 m c) (A1 m c) (A2 m c) (A3 m c) (A4 m c) (A5 m c) := by
  dsimp only [W5, hostOps1]
  after_results_simp
  rw [z1_4, src4, arg2_4]
  rfl

/-- The edge destinations, before the call, -/
theorem dst5 : W5 m ρ c (Proc.devRef .tc main_v3) = Cert.ReferenceIdeal.Read.val_main_v3 (F := Ideal) (A1 m c) := by
  dsimp only [W5, hostOps1]
  after_results
  exact dst4 m ρ c

/-- The second activation's call, from any contents: the buffer it writes is the maximum with 0 of the buffer it is
    applied to. -/
theorem act1 (U : Valuation τ sig (Elt Ideal)) (x : FVec Ideal S1600000x128 .f32)
    (h : U (Proc.devRef .tc main_v30) = x) :
    StableHlo.after hostOps1_1 U (Proc.devRef .tc main_v31)
      = maximumf (F := Ideal) (φ := .f32) x (broadcastInDim S1600000x128 ![] bcast_S_S1600000x128 (constant (F := Ideal) S_ .f32 0x00000000#32)) := by
  dsimp only [hostOps1_1]
  after_results
  rw [h]
  rfl

/-- The call leaves the edge destinations alone. -/
theorem act1_dst (U : Valuation τ sig (Elt Ideal)) :
    StableHlo.after hostOps1_1 U (Proc.devRef .tc main_v3) = U (Proc.devRef .tc main_v3) := by
  dsimp only [hostOps1_1]
  after_results

/-- The second scatter-add's stretch, from any contents: the messages summed at the destinations into zeros. -/
theorem sum1 (U : Valuation τ sig (Elt Ideal)) (d : IVec S1600000 32) (x : FVec Ideal S1600000x128 .f32)
    (hd : U (Proc.devRef .tc main_v3) = d) (hx : U (Proc.devRef .tc main_v31) = x) :
    StableHlo.after hostOps1_2 U (Proc.devRef .tc main_v34)
      = Host.scatterAdd (F := Ideal) scatter_S50000x128_S1600000x1_S1600000x128_1_0_0_1
          (broadcastInDim S50000x128 ![] bcast_S_S50000x128 (constant (F := Ideal) S_ .f32 0x00000000#32))
          (broadcastInDim S1600000x1 ![0] bcast_S1600000_S1600000x1_0 d) x := by
  dsimp only [hostOps1_2]
  after_results
  rw [hd, hx]

/-- The activation of the second messages is the reference's. -/
theorem msg6 : W6 m ρ c (Proc.devRef .tc main_v31) = Cert.ReferenceIdeal.Read.val_main_v39 (F := Ideal) (A0 m c) (A1 m c) (A2 m c) (A3 m c) (A4 m c) (A5 m c) :=
  (act1 (W5 m ρ c) _ (msg5 m ρ c)).trans rfl

/-- The edge destinations after the call. -/
theorem dst6 : W6 m ρ c (Proc.devRef .tc main_v3) = Cert.ReferenceIdeal.Read.val_main_v3 (F := Ideal) (A1 m c) :=
  (act1_dst (W5 m ρ c)).trans (dst5 m ρ c)

/-- The second aggregation is the reference's. -/
theorem agg7 : W7 m ρ c (Proc.devRef .tc main_v34) = Cert.ReferenceIdeal.Read.val_main_v42 (F := Ideal) (A0 m c) (A1 m c) (A2 m c) (A3 m c) (A4 m c) (A5 m c) :=
  (sum1 (W6 m ρ c) _ _ (dst6 m ρ c) (msg6 m ρ c)).trans rfl

/-- The host operations between the regions do not write the count column, -/
theorem cnt7 : W7 m ρ c (Proc.devRef .tc main_v9) = Cert.ReferenceIdeal.Read.val_main_v21 (F := Ideal) (A1 m c) := by
  dsimp only [W7, W6, W5, hostOps1, hostOps1_1, hostOps1_2]
  after_results
  exact cnt4 m ρ c

/-- nor the first region's output. -/
theorem z1_7 : W7 m ρ c (Proc.devRef .tc main_v22)
    = Cert.ReferenceIdeal.Read.val_main_v30 (F := Ideal) (A0 m c) (A1 m c) (A2 m c) (A3 m c) (A4 m c) (A5 m c) := by
  dsimp only [W7, W6, W5, hostOps1, hostOps1_1, hostOps1_2]
  after_results
  exact z1_4 m ρ c

/-- The second layer's left weights are an input array of the second region, which leaves it as found; and it ends
    as launched. -/
theorem arg6_7 : W7 m ρ c (Proc.devRef .tc main_arg6) = A6 m c :=
  ((W8_arr m ρ c 3).trans (((dat1 (V7 m ρ) c).arrAt_in 3 rfl _).trans (A_eq1 (V7 m ρ) c 3))).symm.trans
    (W8_main_arg6 m ρ c)

/-- The same for the second layer's bias, -/
theorem arg7_7 : W7 m ρ c (Proc.devRef .tc main_arg7) = A7 m c :=
  ((W8_arr m ρ c 4).trans (((dat1 (V7 m ρ) c).arrAt_in 4 rfl _).trans (A_eq1 (V7 m ρ) c 4))).symm.trans
    (W8_main_arg7 m ρ c)

/-- and its right weights. -/
theorem arg8_7 : W7 m ρ c (Proc.devRef .tc main_arg8) = A8 m c :=
  ((W8_arr m ρ c 5).trans (((dat1 (V7 m ρ) c).arrAt_in 5 rfl _).trans (A_eq1 (V7 m ρ) c 5))).symm.trans
    (W8_main_arg8 m ρ c)

/-! ## The result -/

/-- The result buffer ends at the reference's result stage of the arguments as launched. -/
theorem result : W8 m ρ c (Proc.devRef .tc main_v35)
    = Cert.ReferenceIdeal.Read.val_main_v56 (F := Ideal) (A0 m c) (A1 m c) (A2 m c) (A3 m c) (A4 m c) (A5 m c) (A6 m c) (A7 m c)
        (A8 m c) := by
  refine (W8_arr m ρ c 6).trans ?_
  refine (Cert.KernelIdeal.Layers.region1 (V7 m ρ) c).trans ?_
  show Cert.Sage.layer (M := 50000) (D := 128) (W7 m ρ c (Proc.devRef .tc main_v34)) (W7 m ρ c (Proc.devRef .tc main_v9))
    (W7 m ρ c (Proc.devRef .tc main_v22)) (W7 m ρ c (Proc.devRef .tc main_arg6)) (W7 m ρ c (Proc.devRef .tc main_arg7))
    (W7 m ρ c (Proc.devRef .tc main_arg8)) = _
  rw [agg7, cnt7, z1_7, arg6_7, arg7_7, arg8_7]
  exact (Cert.ReferenceIdeal.Layers.second_layer (A0 m c) (A1 m c) (A2 m c) (A3 m c) (A4 m c) (A5 m c) (A6 m c) (A7 m c)
    (A8 m c)).symm

end Cert.KernelIdeal.Fold

end
-- ==== Proof.lean ====
/-
  A two-layer mean-aggregation graph network on 50000 nodes and 1600000 edges, 128 features wide: each layer gathers
  the node features along the edges' sources, adds the edge attributes, takes the maximum with 0, sums the messages at
  the edges' destinations, divides each node's sum by its clamped in-degree, and outputs
  (mean · Wl + bl) + z · Wr, with a maximum with 0 between the two layers.

  The kernel leaves the gathers and scatter-adds to the host and does the division and the dense combination in a
  region tiled over the node axis, ten tiles of 5000 rows, its matrix operands narrowed to a shorter float format (the
  identity on the extended reals); it computes the in-degree column once and uses it in both layers. The reference
  does everything on whole arrays and computes the in-degree column per layer. On the extended reals both end with
  the same array: the sparse stages are the same operations of the same arguments, a row of the dense combination
  reads only that row of its operands so a row tile of the output is the combination of the row tiles, the ten
  tiles cover the rows, and the in-degree column does not depend on the layer. No law of arithmetic is needed beyond
  that (no distributivity, no cancelling), so the finiteness of the inputs is never used.

  The three frames: the two kernel programs' by their generated frame certificates; the reference's by its generated
  run with the result dropped. The idealization rewrote no operation, so there is nothing to preserve.
-/
import proofs.«176178_j59279138619817_2_alg».proof.Defs
import proofs.«176178_j59279138619817_2_alg».proof.Proof.Gen.Kernel
import proofs.«176178_j59279138619817_2_alg».proof.Proof.Gen.Kernel.Skeleton
import proofs.«176178_j59279138619817_2_alg».proof.Proof.Gen.Kernel.Launch
import proofs.«176178_j59279138619817_2_alg».proof.Proof.Gen.Kernel.Points
import proofs.«176178_j59279138619817_2_alg».proof.Proof.Gen.Kernel.Frame
import proofs.«176178_j59279138619817_2_alg».proof.Proof.Gen.KernelIdeal
import proofs.«176178_j59279138619817_2_alg».proof.Proof.Gen.KernelIdeal.Skeleton
import proofs.«176178_j59279138619817_2_alg».proof.Proof.Gen.KernelIdeal.Launch
import proofs.«176178_j59279138619817_2_alg».proof.Proof.Gen.KernelIdeal.Points
import proofs.«176178_j59279138619817_2_alg».proof.Proof.Gen.KernelIdeal.Frame
import proofs.«176178_j59279138619817_2_alg».proof.Proof.Gen.ReferenceIdeal
import proofs.«176178_j59279138619817_2_alg».proof.Proof.Gen.ReferenceIdeal.Run
import proofs.«176178_j59279138619817_2_alg».proof.Proof.Gen.ReferenceIdeal.Read
import proofs.«176178_j59279138619817_2_alg».proof.Proof.Gen.Pre_finite_inputs
import proofs.«176178_j59279138619817_2_alg».proof.Proof.KernelRun
import proofs.«176178_j59279138619817_2_alg».proof.Proof.Fold
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run, the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both idealized programs end with the same result array: the kernel's
    result buffer holds what @main's segments leave there, which is the reference's result stage of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W8 m ρ c (Proc.devRef .tc Cert.KernelIdeal.main_v35),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v56_eq, h0, h1, h2, h3, h4, h5, h6, h7, h8]
  exact (Cert.KernelIdeal.Fold.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
